-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S64x512x256 : Shape := ⟨3, ![64, 512, 256]⟩
abbrev S512x512 : Shape := ⟨2, ![512, 512]⟩
abbrev S256x512 : Shape := ⟨2, ![256, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S64x512x256 : S_.BroadcastsInDim S64x512x256 (![] : Fin 0 → Fin S64x512x256.rank)
  reducesTo_S64x512x256_S_d0_1_2 : S64x512x256.ReducesTo [0, 1, 2] S_
  bcast_S_S512x512 : S_.BroadcastsInDim S512x512 (![] : Fin 0 → Fin S512x512.rank)
  reducesTo_S512x512_S_d0_1 : S512x512.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S512x512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S64x512x512 .f32) (main_arg1 : FVec F S64x512x256 .f32) (main_arg2 : FVec F S512x512 .f32) (main_arg3 : FVec F S256x512 .f32) (main_arg4 : FVec F S512x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x512x256 .f32 := Host.absf main_arg1
  let main_cst_0 : FVec F S_ .f32 := constant S_ .f32 0x7F800000#32
  let main_v5 : FVec F S64x512x256 .f32 := broadcastInDim S64x512x256 ![] bcast_S_S64x512x256 main_cst_0
  let main_v6 : IVec S64x512x256 1 := cmpf .olt main_v4 main_v5
  let main_c_1 : IVec S_ 1 := constantI S_ 1 1#1
  let main_v7 : IVec S_ 1 := (fun x v => Host.reduce IntOp.andi x v reducesTo_S64x512x256_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Kernel.lean ====
abbrev S64x512x512 : Shape := ⟨3, ![64, 512, 512]⟩
abbrev S64x512x256 : Shape := ⟨3, ![64, 512, 256]⟩
abbrev S512x512 : Shape := ⟨2, ![512, 512]⟩
abbrev S256x512 : Shape := ⟨2, ![256, 512]⟩
abbrev S1x512x512 : Shape := ⟨3, ![1, 512, 512]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S1x512 : Shape := ⟨2, ![1, 512]⟩

abbrev nBuf : Space → Nat
  | .hbm => 10
  | .vmem => 9
  | .smem => 0
  | _ => 0

abbrev bufTy : (tb : Table) → Fin (tcTables nBuf tb) → BufTy
  | .hbm, ⟨0, _⟩ => ⟨S64x512x512, .f32⟩
  | .hbm, ⟨1, _⟩ => ⟨S64x512x256, .f32⟩
  | .hbm, ⟨2, _⟩ => ⟨S512x512, .f32⟩
  | .hbm, ⟨3, _⟩ => ⟨S256x512, .f32⟩
  | .hbm, ⟨4, _⟩ => ⟨S512x512, .f32⟩
  | .hbm, ⟨5, _⟩ => ⟨S64x512x256, .bf16⟩
  | .hbm, ⟨6, _⟩ => ⟨S512x512, .bf16⟩
  | .hbm, ⟨7, _⟩ => ⟨S256x512, .bf16⟩
  | .hbm, ⟨8, _⟩ => ⟨S512x512, .bf16⟩
  | .hbm, ⟨9, _⟩ => ⟨S64x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x256, .bf16⟩
  | .local _ .vmem, ⟨3, _⟩ => ⟨S1x512x256, .bf16⟩
  | .local _ .vmem, ⟨4, _⟩ => ⟨S512x512, .bf16⟩
  | .local _ .vmem, ⟨5, _⟩ => ⟨S256x512, .bf16⟩
  | .local _ .vmem, ⟨6, _⟩ => ⟨S512x512, .bf16⟩
  | .local _ .vmem, ⟨7, _⟩ => ⟨S1x512x512, .f32⟩
  | .local _ .vmem, ⟨8, _⟩ => ⟨S1x512x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S512x512_S512 : S512x512.Reduces [1] S512
  shapeCasts_S512_S512x1 : S512.ShapeCasts S512x1
  broadcasts_S512x1_S512x512 : S512x1.Broadcasts S512x512
  reduces_S512x512_S512_2 : S512x512.Reduces [0] S512
  shapeCasts_S512_S1x512 : S512.ShapeCasts S1x512
  broadcasts_S1x512_S512x512 : S1x512.Broadcasts S512x512
  shapeCasts_S512x512_S1x512x512 : S512x512.ShapeCasts S1x512x512
  dot_S512x512_S512x512_S512x512_1_0_0_1_n_n_wf : DotDims.WF S512x512 S512x512 S512x512 [1] [0] [0] [1] [] []
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S64x512x256.size a
  hwx0_1 : ∀ i : grid0.Coords, EltTy.bits .bf16 = 32 ∨ (Rect.block (s := S64x512x256) S1x512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S64x512x512.size a
  hwx0_5 : ∀ i : grid0.Coords, EltTy.bits .f32 = 32 ∨ (Rect.block (s := S64x512x512) S1x512x512.size (cc0_transform_5 i) (hinb0_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S64x512x256 : Shape := ⟨3, ![64, 512, 256]⟩
abbrev S512x512 : Shape := ⟨2, ![512, 512]⟩
abbrev S256x512 : Shape := ⟨2, ![256, 512]⟩
abbrev S_ : Shape := ⟨0, ![]⟩
abbrev S64x512 : Shape := ⟨2, ![64, 512]⟩
abbrev S64x512x1 : Shape := ⟨3, ![64, 512, 1]⟩
abbrev S64x1x512 : Shape := ⟨3, ![64, 1, 512]⟩

abbrev nBuf : Space → Nat
  | .hbm => 35
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512x256, .f32⟩
  | .hbm, ⟨2, _⟩ => ⟨S512x512, .f32⟩
  | .hbm, ⟨3, _⟩ => ⟨S256x512, .f32⟩
  | .hbm, ⟨4, _⟩ => ⟨S512x512, .f32⟩
  | .hbm, ⟨5, _⟩ => ⟨S64x512x512, .f32⟩
  | .hbm, ⟨6, _⟩ => ⟨S64x512x512, .f32⟩
  | .hbm, ⟨7, _⟩ => ⟨S64x512x512, .f32⟩
  | .hbm, ⟨8, _⟩ => ⟨S64x512x512, .f32⟩
  | .hbm, ⟨9, _⟩ => ⟨S_, .f32⟩
  | .hbm, ⟨10, _⟩ => ⟨S64x512, .f32⟩
  | .hbm, ⟨11, _⟩ => ⟨S_, .f32⟩
  | .hbm, ⟨12, _⟩ => ⟨S64x512, .f32⟩
  | .hbm, ⟨13, _⟩ => ⟨S64x512, .f32⟩
  | .hbm, ⟨14, _⟩ => ⟨S64x512x1, .f32⟩
  | .hbm, ⟨15, _⟩ => ⟨S64x512x512, .f32⟩
  | .hbm, ⟨16, _⟩ => ⟨S64x512x512, .f32⟩
  | .hbm, ⟨17, _⟩ => ⟨S64x512x512, .f32⟩
  | .hbm, ⟨18, _⟩ => ⟨S_, .f32⟩
  | .hbm, ⟨19, _⟩ => ⟨S64x512, .f32⟩
  | .hbm, ⟨20, _⟩ => ⟨S64x512x1, .f32⟩
  | .hbm, ⟨21, _⟩ => ⟨S64x512x512, .f32⟩
  | .hbm, ⟨22, _⟩ => ⟨S64x512x512, .f32⟩
  | .hbm, ⟨23, _⟩ => ⟨S64x512x512, .f32⟩
  | .hbm, ⟨24, _⟩ => ⟨S64x512x512, .f32⟩
  | .hbm, ⟨25, _⟩ => ⟨S64x512x512, .f32⟩
  | .hbm, ⟨26, _⟩ => ⟨S_, .f32⟩
  | .hbm, ⟨27, _⟩ => ⟨S64x512, .f32⟩
  | .hbm, ⟨28, _⟩ => ⟨S64x1x512, .f32⟩
  | .hbm, ⟨29, _⟩ => ⟨S_, .f32⟩
  | .hbm, ⟨30, _⟩ => ⟨S64x1x512, .f32⟩
  | .hbm, ⟨31, _⟩ => ⟨S64x1x512, .f32⟩
  | .hbm, ⟨32, _⟩ => ⟨S64x1x512, .f32⟩
  | .hbm, ⟨33, _⟩ => ⟨S64x512x512, .f32⟩
  | .hbm, ⟨34, _⟩ => ⟨S64x512x512, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  reducesTo_S64x512x512_S64x512_d2 : S64x512x512.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  reducesTo_S64x512x512_S64x512_d1 : S64x512x512.ReducesTo [1] S64x512
  bcast_S64x512_S64x1x512_0_2 : S64x512.BroadcastsInDim S64x1x512 (![0, 2] : Fin 2 → Fin S64x1x512.rank)
  bcast_S_S64x1x512 : S_.BroadcastsInDim S64x1x512 (![] : Fin 0 → Fin S64x1x512.rank)
  bcast_S64x1x512_S64x512x512_0_1_2 : S64x1x512.BroadcastsInDim S64x512x512 (![0, 1, 2] : Fin 3 → Fin S64x512x512.rank)
  dot_S64x512x512_S512x512_S64x512x512_2_0_01_1_n_n_wf : DotDims.WF S64x512x512 S512x512 S64x512x512 [2] [0] [0, 1] [1] [] []
  dot_S64x512x256_S256x512_S64x512x512_2_0_01_1_n_n_wf : DotDims.WF S64x512x256 S256x512 S64x512x512 [2] [0] [0, 1] [1] [] []

variable [Facts₀]

def dot_S64x512x512_S512x512_S64x512x512_2_0_01_1_n_n : DotDims S64x512x512 S512x512 S64x512x512 where
  lhsContracting := [2]
  rhsContracting := [0]
  lhsNonContracting := [0, 1]
  rhsNonContracting := [1]
  lhsBatch := []
  rhsBatch := []
  wf := dot_S64x512x512_S512x512_S64x512x512_2_0_01_1_n_n_wf
def dot_S64x512x256_S256x512_S64x512x512_2_0_01_1_n_n : DotDims S64x512x256 S256x512 S64x512x512 where
  lhsContracting := [2]
  rhsContracting := [0]
  lhsNonContracting := [0, 1]
  rhsNonContracting := [1]
  lhsBatch := []
  rhsBatch := []
  wf := dot_S64x512x256_S256x512_S64x512x512_2_0_01_1_n_n_wf

class Facts : Prop extends Facts₀ where

variable [Facts]
-- ==== Proof.Spec.lean ====
/-
  The function both programs compute, written once over one batch slice.

  For one batch entry the inputs are a 512×512 matrix x (the slice of the first input), a 512×256 matrix z (the slice of
  the second) and three weight matrices wq (512×512), wk (256×512), wv (512×512), all of extended reals. Row s of the
  scores is x·wq + z·wk; the scores pass through tanh and then a softmax along each row: the row's largest activation
  (never below −∞) is subtracted, the exponentials are divided by their row sum. The weights so obtained multiply wv, the
  product is multiplied entry by entry with x, and each COLUMN of the result is scaled by the reciprocal square root of
  its sum of squares, that sum first raised to at least ε. Nothing here mentions a program.
-/
import Idealize.ShloMosaic.PureOps.Ideal

noncomputable section

namespace Cert.AttnSpec

open Idealize.ShloMosaic

/-- The extended real the word of −∞ denotes: the value every row maximum starts from. -/
abbrev floorVal : EReal := Ideal.ofBits .f32 0xFF800000#32
/-- The extended real the word of ε denotes: the least value a column's sum of squares is raised to. -/
abbrev epsVal : EReal := Ideal.ofBits .f32 0x2B8CBCCC#32

variable (x : Fin 512 → Fin 512 → EReal) (z : Fin 512 → Fin 256 → EReal)
  (wq : Fin 512 → Fin 512 → EReal) (wk : Fin 256 → Fin 512 → EReal) (wv : Fin 512 → Fin 512 → EReal)

/-- Entry (s, u) of x·wq + z·wk. -/
def scores (s u : Fin 512) : EReal := (∑ t : Fin 512, x s t * wq t u) + ∑ f : Fin 256, z s f * wk f u

/-- The activation: tanh of the score. -/
def act (s u : Fin 512) : EReal := Ideal.tanh (scores x z wq wk s u)

/-- The largest activation of row s, folded from −∞ and then compared with −∞ once more. -/
def rowTop (s : Fin 512) : EReal :=
  max floorVal ((Finset.univ : Finset (Fin 512)).fold max floorVal fun u => act x z wq wk s u)

/-- The exponential of the activation less its row's largest. -/
def shifted (s u : Fin 512) : EReal := Ideal.exp (act x z wq wk s u - rowTop x z wq wk s)

/-- The sum of row s of those exponentials. -/
def rowMass (s : Fin 512) : EReal := ∑ u : Fin 512, shifted x z wq wk s u

/-- The softmax weight: the exponential over its row's sum. -/
def weight (s u : Fin 512) : EReal := Ideal.div (shifted x z wq wk s u) (rowMass x z wq wk s)

/-- Entry (s, t) of (weights·wv) multiplied entry by entry with x. -/
def mixed (s t : Fin 512) : EReal := (∑ u : Fin 512, weight x z wq wk s u * wv u t) * x s t

/-- The sum of squares down column t. -/
def colEnergy (t : Fin 512) : EReal := ∑ s : Fin 512, mixed x z wq wk wv s t * mixed x z wq wk wv s t

/-- The result: each entry times the reciprocal square root of its column's sum of squares, raised to at least ε. -/
def normalized (s t : Fin 512) : EReal :=
  mixed x z wq wk wv s t * Ideal.rsqrt (max (colEnergy x z wq wk wv t) epsVal)

end Cert.AttnSpec

end
-- ==== Proof.Slices.lean ====
/-
  Arrays as functions of their coordinates: batch entry b of a [64, 512, n] array as a 512×n matrix, the one entry of a
  [1, 512, n] block as a 512×n matrix, and a [p, q] array as a p×q matrix. Both programs' values are stated over these.
-/
import Idealize.ShloMosaic.Lib.ValueIdx
import Idealize.ShloMosaic.PureOps.Ideal

namespace Cert.AttnSlices

open Idealize.ShloMosaic Idealize.ShloMosaic.ValueIdx

/-- Batch entry `b` of a [64, 512, n] array, as the matrix of its entries (b, s, t). -/
abbrev slab {n : ℕ} (a : (⟨3, ![64, 512, n]⟩ : Shape).Idx → EReal) (b : Fin 64) : Fin 512 → Fin n → EReal :=
  fun s t => a (ix3 b s t)

/-- The one batch entry of a [1, 512, n] block, as the matrix of its entries (0, s, t). -/
abbrev tile {n : ℕ} (a : (⟨3, ![1, 512, n]⟩ : Shape).Idx → EReal) : Fin 512 → Fin n → EReal :=
  fun s t => a (ix3 (0 : Fin 1) s t)

/-- A [p, q] array as the matrix of its entries (i, j). -/
abbrev mat {p q : ℕ} (w : (⟨2, ![p, q]⟩ : Shape).Idx → EReal) : Fin p → Fin q → EReal :=
  fun i j => w (ix2 i j)

end Cert.AttnSlices
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumnSum.lean ====
/-
  A sum down the rows of a matrix, read at one column.

  An [a, b] array of extended reals reduced by addition along axis 0 (its rows), from a zero initial value, holds at
  column l the finite sum over the a rows k of the entry (k, l). Stated with the operation's own proof arguments as
  variables, so that a printed reduction meets it in term mode whatever proofs it carries. Depends on no program.
-/
import Idealize.ShloMosaic.Lib.ValueIdx
import Idealize.ShloMosaic.PureOps.Ideal.Laws

noncomputable section

namespace Cert.Lib

open Idealize.ShloMosaic Idealize.ShloMosaic.ValueIdx

/-- The sum of column `l` of an [a, b] array over its `a` rows, from a zero initial value. -/
theorem column_sum {a b : ℕ} (v : FVec Ideal ⟨2, ![a, b]⟩ .f32) (h : (⟨2, ![a, b]⟩ : Shape).Reduces [0] ⟨1, ![b]⟩)
    (hφ : FKind.Formats .f32) (hacc : (0x00000000#32 : BitVec (FTy.f32).bits) = FKind.add.neutral .f32 hφ) (l : Fin b) :
    multiReduction .add [0] ⟨1, ![b]⟩ v 0x00000000#32 h hφ hacc (ix1 l) = ∑ k : Fin a, v (ix2 k l) :=
  (Ideal.multiReduction_add_single v 0x00000000#32 h hφ hacc (ix1 l)).trans
    (Finset.sum_congr rfl fun k _ => congrArg v (funext fun c => Fin.ext (by
      match c with
      | ⟨0, _⟩ => rfl
      | ⟨1, _⟩ => rfl)))

end Cert.Lib

end
-- ==== Proof.LibLayout.lean ====
/-
  Small layout facts read at an index, for two-dimensional arrays with a unit axis: a vector turned into a
  column, a column broadcast across columns. (The row forms and the plain transpose are in the library.)
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to the column shape `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element `[1]` array cast to `[1, 1]` reads the operand's one element. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show (0 : ℕ) = u.val * 1 + v.val
    rw [hu, hv])

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibLayout
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.KernelStages.lean ====
/-
  The kernel body's arithmetic, stage by stage, is the specification of the block it loads.

  The body loads one batch entry of each input (a [1, 512, ·] block, read as a matrix through the leading unit axis) and
  the three weight matrices whole, and computes the whole 512×512 result tile from them. The stages below name the
  body's intermediate tiles in its own operations; the body's payload is the last of them. Read at an entry (s, u), each
  stage is the matching stage of the specification: a product into a zero accumulator is the sum over the contracted
  coordinate (a change of float format in front of it is the identity), the maximum and the sum along a row are the fold
  and the sum over that row, the sum down a column is the sum over that column, and a reduced vector turned into a column
  or a row and broadcast back reads the reduced vector at the row or the column of the entry.
-/
import proofs.«174096_j77429670412962_1_alg».proof.Proof.Gen.KernelIdeal.Skeleton
import proofs.«174096_j77429670412962_1_alg».proof.Proof.Spec
import proofs.«174096_j77429670412962_1_alg».proof.Proof.Slices
import proofs.«174096_j77429670412962_1_alg».proof.Proof.LibAxisFold
import proofs.«174096_j77429670412962_1_alg».proof.Proof.LibColumnSum
import proofs.«174096_j77429670412962_1_alg».proof.Proof.LibLayout
import proofs.«174096_j77429670412962_1_alg».proof.Proof.LibPlainDot
import Idealize.ShloMosaic.Lib.ValueLayout
import Idealize.ShloMosaic.Lib.Pipeline.Value

noncomputable section

namespace Cert.AttnKernel

open Idealize.ShloMosaic Idealize.ShloMosaic.TcCoe Idealize.ShloMosaic.ValueIdx
open Cert.KernelIdeal Cert.KernelIdeal.Gen Cert.AttnSpec Cert.AttnSlices

variable (P0 : Vec Ideal S1x512x512 .f32) (P1 : Vec Ideal S1x512x256 .bf16) (P2 : Vec Ideal S512x512 .bf16)
  (P3 : Vec Ideal S256x512 .bf16) (P4 : Vec Ideal S512x512 .bf16)

/-! ## The body's tiles, in its own operations -/

/-- The first input's block as a 512×512 tile. -/
def tileX : FVec Ideal S512x512 .f32 := shapeCast S512x512 P0 shapeCasts_S1x512x512_S512x512

/-- The two products into zero accumulators, added. -/
def tScores : FVec Ideal S512x512 .f32 :=
  addf
    (matmul (φ₁ := .bf16) (φ₂ := .bf16) dot_S512x512_S512x512_S512x512_1_0_0_1_n_n none (truncf .bf16 (tileX P0) bitsLt_bf16_f32)
      (shapeCast S512x512 P2 shapeCasts_S512x512_S512x512) (constant S512x512 .f32 0x00000000#32))
    (matmul (φ₁ := .bf16) (φ₂ := .bf16) dot_S512x256_S256x512_S512x512_1_0_0_1_n_n none (shapeCast S512x256 P1 shapeCasts_S1x512x256_S512x256)
      (shapeCast S256x512 P3 shapeCasts_S256x512_S256x512) (constant S512x512 .f32 0x00000000#32))

/-- tanh of the scores. -/
def tAct : FVec Ideal S512x512 .f32 := tanh (tScores P0 P1 P2 P3)

/-- The row maxima, compared with −∞, as a column broadcast across the tile. -/
def tTop : FVec Ideal S512x512 .f32 :=
  broadcastTo S512x512
    (shapeCast S512x1
      (maximumf (broadcast S512 (Scalar.ofBits .f32 0xFF800000#32))
        (multiReduction .maximumf [1] S512 (tAct P0 P1 P2 P3) 0xFF800000#32 reduces_S512x512_S512 (.inl rfl) rfl))
      shapeCasts_S512_S512x1)
    broadcasts_S512x1_S512x512

/-- The exponentials of the activations less their row's largest. -/
def tShifted : FVec Ideal S512x512 .f32 := exp (subf (tAct P0 P1 P2 P3) (tTop P0 P1 P2 P3))

/-- The row sums of the exponentials, as a column broadcast across the tile. -/
def tMass : FVec Ideal S512x512 .f32 :=
  broadcastTo S512x512
    (shapeCast S512x1
      (multiReduction .add [1] S512 (tShifted P0 P1 P2 P3) 0x00000000#32 reduces_S512x512_S512 (.inl rfl) rfl)
      shapeCasts_S512_S512x1)
    broadcasts_S512x1_S512x512

/-- The softmax weights. -/
def tWeight : FVec Ideal S512x512 .f32 := divf (tShifted P0 P1 P2 P3) (tMass P0 P1 P2 P3)

/-- The weights times the third weight matrix, multiplied entry by entry with the first input's tile. -/
def tMixed : FVec Ideal S512x512 .f32 :=
  mulf
    (matmul (φ₁ := .bf16) (φ₂ := .bf16) dot_S512x512_S512x512_S512x512_1_0_0_1_n_n none (truncf .bf16 (tWeight P0 P1 P2 P3) bitsLt_bf16_f32)
      (shapeCast S512x512 P4 shapeCasts_S512x512_S512x512) (constant S512x512 .f32 0x00000000#32))
    (tileX P0)

/-- The reciprocal square roots of the column sums of squares (raised to at least ε), as a row broadcast down the tile. -/
def tScale : FVec Ideal S512x512 .f32 :=
  broadcastTo S512x512
    (rsqrt
      (maximumf
        (shapeCast S1x512
          (multiReduction .add [0] S512 (mulf (tMixed P0 P1 P2 P3 P4) (tMixed P0 P1 P2 P3 P4)) 0x00000000#32
            reduces_S512x512_S512_2 (.inl rfl) rfl)
          shapeCasts_S512_S1x512)
        (broadcast S1x512 (Scalar.ofBits .f32 0x2B8CBCCC#32))))
    broadcasts_S1x512_S512x512

/-- The result tile. -/
def tOut : FVec Ideal S512x512 .f32 := mulf (tMixed P0 P1 P2 P3 P4) (tScale P0 P1 P2 P3 P4)

/-- The body's payload is the result tile: the same operations, with the intermediate values named. -/
theorem pay_eq_tOut : k0_pay2 (F := Ideal) P0 P1 P2 P3 P4 = tOut P0 P1 P2 P3 P4 := rfl

/-! ## Each tile at an entry -/

/-- The first input's tile at (s, t) is the block's entry (0, s, t). -/
theorem tileX_at (s t : Fin 512) : tileX P0 (ix2 s t) = tile P0 s t :=
  shapeCast_1ab_ab_apply P0 _ s t

theorem tScores_at (s u : Fin 512) :
    tScores P0 P1 P2 P3 (ix2 s u) = scores (tile P0) (tile P1) (mat P2) (mat P3) s u := by
  unfold tScores scores
  rw [addf_apply, Cert.PlainDot.matmul_apply _ ⟨rfl, rfl, rfl, rfl, rfl, rfl⟩,
    Cert.PlainDot.matmul_apply _ ⟨rfl, rfl, rfl, rfl, rfl, rfl⟩]
  refine congrArg₂ (· + ·) (Finset.sum_congr rfl fun k _ => ?_) (Finset.sum_congr rfl fun k _ => ?_)
  · exact congrArg₂ (· * ·) (tileX_at P0 s k) (congrFun (shapeCast_self P2 _) (ix2 k u))
  · exact congrArg₂ (· * ·) (shapeCast_1ab_ab_apply P1 _ s k) (congrFun (shapeCast_self P3 _) (ix2 k u))

theorem tAct_at (s u : Fin 512) :
    tAct P0 P1 P2 P3 (ix2 s u) = act (tile P0) (tile P1) (mat P2) (mat P3) s u := by
  unfold tAct act
  exact congrArg Ideal.tanh (tScores_at P0 P1 P2 P3 s u)

theorem tTop_at (s u : Fin 512) :
    tTop P0 P1 P2 P3 (ix2 s u) = rowTop (tile P0) (tile P1) (mat P2) (mat P3) s := by
  unfold tTop rowTop
  refine (Cert.LibLayout.broadcastTo_a1_ab_apply _ _ s u).trans ?_
  refine (Cert.LibLayout.shapeCast_a_a1_apply _ _ s (0 : Fin 1)).trans ?_
  rw [maximumf_apply]
  refine congrArg₂ max rfl ((Cert.AxisFold.row_max _ _ _ _ _ s).trans ?_)
  exact congrArg (fun g => Finset.fold max floorVal g (Finset.univ : Finset (Fin 512)))
    (funext fun k => tAct_at P0 P1 P2 P3 s k)

theorem tShifted_at (s u : Fin 512) :
    tShifted P0 P1 P2 P3 (ix2 s u) = shifted (tile P0) (tile P1) (mat P2) (mat P3) s u := by
  unfold tShifted shifted
  show Ideal.exp (tAct P0 P1 P2 P3 (ix2 s u) - tTop P0 P1 P2 P3 (ix2 s u)) = _
  rw [tAct_at, tTop_at]

theorem tMass_at (s u : Fin 512) :
    tMass P0 P1 P2 P3 (ix2 s u) = rowMass (tile P0) (tile P1) (mat P2) (mat P3) s := by
  unfold tMass rowMass
  refine (Cert.LibLayout.broadcastTo_a1_ab_apply _ _ s u).trans ?_
  refine (Cert.LibLayout.shapeCast_a_a1_apply _ _ s (0 : Fin 1)).trans ?_
  refine (Cert.AxisFold.row_sum _ _ _ _ s).trans ?_
  exact Finset.sum_congr rfl fun k _ => tShifted_at P0 P1 P2 P3 s k

theorem tWeight_at (s u : Fin 512) :
    tWeight P0 P1 P2 P3 (ix2 s u) = weight (tile P0) (tile P1) (mat P2) (mat P3) s u := by
  unfold tWeight weight
  rw [divf_apply, tShifted_at, tMass_at]

theorem tMixed_at (s t : Fin 512) :
    tMixed P0 P1 P2 P3 P4 (ix2 s t) = mixed (tile P0) (tile P1) (mat P2) (mat P3) (mat P4) s t := by
  unfold tMixed mixed
  rw [mulf_apply, Cert.PlainDot.matmul_apply _ ⟨rfl, rfl, rfl, rfl, rfl, rfl⟩]
  refine congrArg₂ (· * ·) (Finset.sum_congr rfl fun k _ => ?_) (tileX_at P0 s t)
  exact congrArg₂ (· * ·) (tWeight_at P0 P1 P2 P3 s k) (congrFun (shapeCast_self P4 _) (ix2 k t))

theorem tScale_at (s t : Fin 512) :
    tScale P0 P1 P2 P3 P4 (ix2 s t)
      = Ideal.rsqrt (max (colEnergy (tile P0) (tile P1) (mat P2) (mat P3) (mat P4) t) epsVal) := by
  unfold tScale colEnergy
  refine (broadcastTo_1b_ab_apply _ _ s t).trans ?_
  show Ideal.rsqrt (max (shapeCast S1x512 _ shapeCasts_S512_S1x512 (ix2 (0 : Fin 1) t)) epsVal) = _
  refine congrArg (fun e => Ideal.rsqrt (max e epsVal)) ?_
  refine (shapeCast_a_1a_apply _ _ (0 : Fin 1) t).trans ?_
  refine (Cert.Lib.column_sum _ _ _ _ t).trans (Finset.sum_congr rfl fun k _ => ?_)
  rw [mulf_apply, tMixed_at]

/-- The result tile at (s, t) is the specification of the loaded blocks at (s, t). -/
theorem tOut_at (s t : Fin 512) :
    tOut P0 P1 P2 P3 P4 (ix2 s t) = normalized (tile P0) (tile P1) (mat P2) (mat P3) (mat P4) s t := by
  unfold tOut normalized
  rw [mulf_apply, tMixed_at, tScale_at]

/-- The body's payload at (s, t) is the specification of the loaded blocks at (s, t). -/
theorem pay_at (s t : Fin 512) :
    k0_pay2 (F := Ideal) P0 P1 P2 P3 P4 (ix2 s t) = normalized (tile P0) (tile P1) (mat P2) (mat P3) (mat P4) s t :=
  (congrFun (pay_eq_tOut P0 P1 P2 P3 P4) (ix2 s t)).trans (tOut_at P0 P1 P2 P3 P4 s t)

end Cert.AttnKernel

end
-- ==== Proof.Whole.lean ====
/-
  The whole result array as one function of the five argument arrays: entry (b, s, t) is the specification of batch
  entry b of the two inputs, with the three weight matrices, at (s, t).
-/
import proofs.«174096_j77429670412962_1_alg».proof.Proof.Spec
import proofs.«174096_j77429670412962_1_alg».proof.Proof.Slices

noncomputable section

namespace Cert.AttnWhole

open Idealize.ShloMosaic Idealize.ShloMosaic.ValueIdx Cert.AttnSpec Cert.AttnSlices

/-- The result array: at an index, the specification of that index's batch entry at its row and column. -/
def whole (a0 : (⟨3, ![64, 512, 512]⟩ : Shape).Idx → EReal) (a1 : (⟨3, ![64, 512, 256]⟩ : Shape).Idx → EReal)
    (a2 : (⟨2, ![512, 512]⟩ : Shape).Idx → EReal) (a3 : (⟨2, ![256, 512]⟩ : Shape).Idx → EReal)
    (a4 : (⟨2, ![512, 512]⟩ : Shape).Idx → EReal) : (⟨3, ![64, 512, 512]⟩ : Shape).Idx → EReal :=
  fun i => normalized (slab a0 (i 0)) (slab a1 (i 0)) (mat a2) (mat a3) (mat a4) (i 1) (i 2)

/-- At the index (b, s, t) it is the specification of batch entry b at (s, t). -/
theorem whole_at (a0 : (⟨3, ![64, 512, 512]⟩ : Shape).Idx → EReal) (a1 : (⟨3, ![64, 512, 256]⟩ : Shape).Idx → EReal)
    (a2 : (⟨2, ![512, 512]⟩ : Shape).Idx → EReal) (a3 : (⟨2, ![256, 512]⟩ : Shape).Idx → EReal)
    (a4 : (⟨2, ![512, 512]⟩ : Shape).Idx → EReal) (b : Fin 64) (s t : Fin 512) :
    whole a0 a1 a2 a3 a4 (ix3 b s t) = normalized (slab a0 b) (slab a1 b) (mat a2) (mat a3) (mat a4) s t := rfl

end Cert.AttnWhole

end
-- ==== Proof.KernelArray.lean ====
/-
  From the blocks the kernel writes to the whole result array.

  The grid has one point per batch entry. At point t the first two windows hold batch entry t of the two inputs (the
  second after the host's change of float format, the identity on extended reals) and the three weight windows hold the
  weights whole (again after a change of format); the body leaves the specification of those blocks in the output
  window's block, which is batch entry t of the result array. The 64 blocks cover the array, so after the run the array
  is the whole-array function of the arguments.
-/
import proofs.«174096_j77429670412962_1_alg».proof.Proof.Gen.KernelIdeal.Value
import proofs.«174096_j77429670412962_1_alg».proof.Proof.KernelStages
import proofs.«174096_j77429670412962_1_alg».proof.Proof.Whole
import Idealize.ShloMosaic.Lib.StableHlo.Run
import Idealize.ShloMosaic.Lib.Pipeline.Value

set_option maxRecDepth 16384

noncomputable section

namespace Cert.AttnArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.AttnSpec Cert.AttnSlices Cert.AttnWhole Cert.AttnKernel

/-! ## What the region finds in the four converted arrays -/

section Entry

variable {F : FTy → Type} [FloatOps F] (m : (ℓ : Loc nD τ sig) → Buf (Elt F) ℓ)

/-- The second input enters the region with its float format changed, nothing else. -/
theorem entry_v0 (c : Dev nD) :
    V m c main_v0 = truncf .bf16 (m ((c : Thread nD τ).loc main_arg1)) bitsLt_bf16_f32 := by
  unfold V; after_results

/-- So do the three weight matrices. -/
theorem entry_v1 (c : Dev nD) :
    V m c main_v1 = truncf .bf16 (m ((c : Thread nD τ).loc main_arg2)) bitsLt_bf16_f32 := by
  unfold V; after_results

theorem entry_v2 (c : Dev nD) :
    V m c main_v2 = truncf .bf16 (m ((c : Thread nD τ).loc main_arg3)) bitsLt_bf16_f32 := by
  unfold V; after_results

theorem entry_v3 (c : Dev nD) :
    V m c main_v3 = truncf .bf16 (m ((c : Thread nD τ).loc main_arg4)) bitsLt_bf16_f32 := by
  unfold V; after_results

end Entry

variable (m : (ℓ : Loc nD τ sig) → Buf (Elt Ideal) ℓ) (ρ : Dev nD → PrngReg)

/-! ## Where each window's block sits at a point -/

/-- The printed index maps over the 64 points: the two input windows and the output window sit at batch entry t, at
    row and column block 0; the weight windows never move. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The batch entry a grid point works on. -/
abbrev entryOf (t : Fin cfg0.N) : Fin 64 := Fin.cast N_0 t

/-! ## The input blocks read off the argument arrays -/

/-- The first window's block at point t is batch entry t of the first input. -/
theorem tile_x (c : Dev nD) (t : Fin cfg0.N) :
    tile (iblk m c 0 t) = slab (m ((c : Thread nD τ).loc main_arg0)) (entryOf t) := by
  obtain ⟨e0, e1, e2, -⟩ := idx_facts t
  funext p q
  show V m c main_arg0 (((cfg0.win 0).blk t).view.emb (ix3 (0 : Fin 1) p q)) = _
  rw [V_main_arg0]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 512 + 1 * p.val = p.val; omega
  | ⟨2, _⟩ => show win0_0.index t (2 : Fin 3) * 512 + 1 * q.val = q.val; omega

/-- The second window's block at point t is batch entry t of the second input. -/
theorem tile_z (c : Dev nD) (t : Fin cfg0.N) :
    tile (iblk m c 1 t) = slab (m ((c : Thread nD τ).loc main_arg1)) (entryOf t) := by
  obtain ⟨-, -, -, e0, e1, e2, -⟩ := idx_facts t
  funext p q
  show V m c main_v0 (((cfg0.win 1).blk t).view.emb (ix3 (0 : Fin 1) p q)) = _
  rw [entry_v0]
  show m ((c : Thread nD τ).loc main_arg1) (((cfg0.win 1).blk t).view.emb (ix3 (0 : Fin 1) p q)) = _
  refine congrArg (m ((c : Thread nD τ).loc main_arg1)) (funext fun a => Fin.ext ?_)
  match a with
  | ⟨0, _⟩ => show win0_1.index t (0 : Fin 3) * 1 + 1 * 0 = t.val; omega
  | ⟨1, _⟩ => show win0_1.index t (1 : Fin 3) * 512 + 1 * p.val = p.val; omega
  | ⟨2, _⟩ => show win0_1.index t (2 : Fin 3) * 256 + 1 * q.val = q.val; omega

/-- The third window's block is the first weight matrix, at every point. -/
theorem mat_q (c : Dev nD) (t : Fin cfg0.N) :
    mat (iblk m c 2 t) = mat (m ((c : Thread nD τ).loc main_arg2)) := by
  obtain ⟨-, -, -, -, -, -, e0, e1, -⟩ := idx_facts t
  funext p q
  show V m c main_v1 (((cfg0.win 2).blk t).view.emb (ix2 p q)) = _
  rw [entry_v1]
  show m ((c : Thread nD τ).loc main_arg2) (((cfg0.win 2).blk t).view.emb (ix2 p q)) = _
  refine congrArg (m ((c : Thread nD τ).loc main_arg2)) (funext fun a => Fin.ext ?_)
  match a with
  | ⟨0, _⟩ => show win0_2.index t (0 : Fin 2) * 512 + 1 * p.val = p.val; omega
  | ⟨1, _⟩ => show win0_2.index t (1 : Fin 2) * 512 + 1 * q.val = q.val; omega

/-- The fourth window's block is the second weight matrix. -/
theorem mat_k (c : Dev nD) (t : Fin cfg0.N) :
    mat (iblk m c 3 t) = mat (m ((c : Thread nD τ).loc main_arg3)) := by
  obtain ⟨-, -, -, -, -, -, -, -, e0, e1, -⟩ := idx_facts t
  funext p q
  show V m c main_v2 (((cfg0.win 3).blk t).view.emb (ix2 p q)) = _
  rw [entry_v2]
  show m ((c : Thread nD τ).loc main_arg3) (((cfg0.win 3).blk t).view.emb (ix2 p q)) = _
  refine congrArg (m ((c : Thread nD τ).loc main_arg3)) (funext fun a => Fin.ext ?_)
  match a with
  | ⟨0, _⟩ => show win0_3.index t (0 : Fin 2) * 256 + 1 * p.val = p.val; omega
  | ⟨1, _⟩ => show win0_3.index t (1 : Fin 2) * 512 + 1 * q.val = q.val; omega

/-- The fifth window's block is the third weight matrix. -/
theorem mat_v (c : Dev nD) (t : Fin cfg0.N) :
    mat (iblk m c 4 t) = mat (m ((c : Thread nD τ).loc main_arg4)) := by
  obtain ⟨-, -, -, -, -, -, -, -, -, -, e0, e1, -⟩ := idx_facts t
  funext p q
  show V m c main_v3 (((cfg0.win 4).blk t).view.emb (ix2 p q)) = _
  rw [entry_v3]
  show m ((c : Thread nD τ).loc main_arg4) (((cfg0.win 4).blk t).view.emb (ix2 p q)) = _
  refine congrArg (m ((c : Thread nD τ).loc main_arg4)) (funext fun a => Fin.ext ?_)
  match a with
  | ⟨0, _⟩ => show win0_4.index t (0 : Fin 2) * 512 + 1 * p.val = p.val; omega
  | ⟨1, _⟩ => show win0_4.index t (1 : Fin 2) * 512 + 1 * q.val = q.val; omega

/-! ## What the body leaves in the output block -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The output block after the body, for any loaded blocks: at (0, s, q), the specification of those blocks at (s, q). -/
theorem out_at (x0 : Vec Ideal S1x512x512 .f32) (x1 : Vec Ideal S1x512x256 .bf16) (x2 : Vec Ideal S512x512 .bf16)
    (x3 : Vec Ideal S256x512 .bf16) (x4 : Vec Ideal S512x512 .bf16) (u : Fin 1) (s q : Fin 512) :
    out0_5 x0 x1 x2 x3 x4 (ix3 u s q) = normalized (tile x0) (tile x1) (mat x2) (mat x3) (mat x4) s q := by
  unfold out0_5
  simp only [View.ld_unit_zero (S := S1x512x512) zeros3, View.ld_unit_zero (S := S1x512x256) zeros3,
    View.ld_unit_zero (S := S512x512) zeros2, View.ld_unit_zero (S := S256x512) zeros2]
  rw [Cert.KernelIdeal.Value.canon5_eq]
  show k0_pay2 x0 x1 x2 x3 x4 (Cert.KernelIdeal.Value.ix5_0 (ix3 u s q)) = _
  have e : Cert.KernelIdeal.Value.ix5_0 (ix3 u s q) = ix2 s q :=
    funext fun a => Fin.ext (by match a with | ⟨0, _⟩ => rfl | ⟨1, _⟩ => rfl)
  rw [e]
  exact pay_at x0 x1 x2 x3 x4 s q

/-- Where the output window's block at point t puts its entry (0, s, q): at (t, s, q) of the result array. -/
theorem emb_out (t : Fin cfg0.N) (u : Fin 1) (s q : Fin 512) :
    ((cfg0.win 5).blk t).view.emb (ix3 u s q) = ix3 (entryOf t) s q := by
  obtain ⟨-, -, -, -, -, -, -, -, -, -, -, -, e0, e1, e2⟩ := idx_facts t
  have hu : u.val = 0 := by omega
  funext a; apply Fin.ext
  match a with
  | ⟨0, _⟩ => show win0_5.index t (0 : Fin 3) * 1 + 1 * u.val = t.val; omega
  | ⟨1, _⟩ => show win0_5.index t (1 : Fin 3) * 512 + 1 * s.val = s.val; omega
  | ⟨2, _⟩ => show win0_5.index t (2 : Fin 3) * 512 + 1 * q.val = q.val; omega

/-- The whole-array function of the launch contents of the five arguments on core c. -/
abbrev result (c : Dev nD) : S64x512x512.Idx → EReal :=
  whole (m ((c : Thread nD τ).loc main_arg0)) (m ((c : Thread nD τ).loc main_arg1)) (m ((c : Thread nD τ).loc main_arg2))
    (m ((c : Thread nD τ).loc main_arg3)) (m ((c : Thread nD τ).loc main_arg4))

/-- What point t writes back is block t of the whole-array function. -/
theorem flushed_eq (c : Dev nD) (t : Fin cfg0.N) :
    (dats m 0 c).flushed 5 t = ((cfg0.win 5).blk t).view.read (Elt Ideal) (result m c) := by
  rw [Cert.KernelIdeal.Value.flushed5]
  funext y
  obtain ⟨u, s, q, rfl⟩ : ∃ (u : Fin 1) (s q : Fin 512), y = ix3 u s q := ⟨y 0, y 1, y 2, eq_ix3 y⟩
  show out0_5 (iblk m c 0 t) (iblk m c 1 t) (iblk m c 2 t) (iblk m c 3 t) (iblk m c 4 t) (ix3 u s q)
    = result m c (((cfg0.win 5).blk t).view.emb (ix3 u s q))
  refine (out_at (iblk m c 0 t) (iblk m c 1 t) (iblk m c 2 t) (iblk m c 3 t) (iblk m c 4 t) u s q).trans ?_
  rw [tile_x m c t, tile_z m c t, mat_q m c t, mat_k m c t, mat_v m c t, emb_out t u s q]
  rfl

/-! ## The blocks cover the array -/

/-- An index is in point t's block iff each coordinate is in the block's range on its axis. -/
theorem mem_blk (t : Fin cfg0.N) (i : S64x512x512.Idx) :
    i ∈ ((cfg0.win 5).blk t).view.set ↔ ∀ a : Fin 3, win0_5.index t a * S1x512x512.size a ≤ (i a).val
      ∧ (i a).val < win0_5.index t a * S1x512x512.size a + S1x512x512.size a := by
  show i ∈ ((View.whole main_v4).slice (win0_5.rect t)).set ↔ _
  rw [View.set_slice_whole, Rect.mem_set_unit]
  exact Iff.rfl

/-- Every index (b, s, q) of the result array is in the block of point b. -/
theorem covered (i : S64x512x512.Idx) :
    ∃ t : Fin cfg0.N, (cfg0.win 5).flush t = true ∧ i ∈ ((cfg0.win 5).blk t).view.set := by
  have hi0 : (i 0).val < 64 := (i 0).isLt
  have hi1 : (i 1).val < 512 := (i 1).isLt
  have hi2 : (i 2).val < 512 := (i 2).isLt
  have hb : (i 0).val < cfg0.N := by rw [show cfg0.N = 64 from N_0]; exact hi0
  obtain ⟨-, -, -, -, -, -, -, -, -, -, -, -, e0, e1, e2⟩ := idx_facts ⟨(i 0).val, hb⟩
  refine ⟨⟨(i 0).val, hb⟩, flush0_5 _, ?_⟩
  rw [mem_blk]
  intro a
  match a with
  | ⟨0, _⟩ =>
    show win0_5.index ⟨(i 0).val, hb⟩ (0 : Fin 3) * 1 ≤ (i 0).val ∧ (i 0).val < win0_5.index ⟨(i 0).val, hb⟩ (0 : Fin 3) * 1 + 1
    have e0' : win0_5.index ⟨(i 0).val, hb⟩ (0 : Fin 3) = (i 0).val := e0
    omega
  | ⟨1, _⟩ =>
    show win0_5.index ⟨(i 0).val, hb⟩ (1 : Fin 3) * 512 ≤ (i 1).val ∧ (i 1).val < win0_5.index ⟨(i 0).val, hb⟩ (1 : Fin 3) * 512 + 512
    omega
  | ⟨2, _⟩ =>
    show win0_5.index ⟨(i 0).val, hb⟩ (2 : Fin 3) * 512 ≤ (i 2).val ∧ (i 2).val < win0_5.index ⟨(i 0).val, hb⟩ (2 : Fin 3) * 512 + 512
    omega

/-- After the run the result array is the whole-array function of the arguments. -/
theorem final (c : Dev nD) : (dats m 0 c).arrAt 5 cfg0.N = result m c :=
  (dats m 0 c).arrAt_eq_of_cover 5 (result m c) (fun t _ => flushed_eq m c t) covered

/-! ## The run -/

/-- Every weakly fair execution of the kernel's program ends with the result array at the whole-array function of the
    arguments, and the arguments as launched. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.AttnArray

end
-- ==== Proof.LibLaneFold.lean ====
/-
  Reductions along the last axis, read at one index, for any extents.

  A host reduction of an [a, b] array along axis 1 by a commutative and associative operation holds, at row
  p, the fold of the operation from the initial value over the entries (p, k), k < b. A kernel's minimum or
  maximum reduction of an [a, b, c] array along axis 2, from the value a starting word denotes, holds at
  (p, q) the fold of `min` or `max` from that value over the entries (p, q, k), k < c. Each holds for
  arbitrary proofs of the operation's side conditions and depends on no program.
-/
import Idealize.ShloMosaic.Lib.ValueIdx
import Idealize.ShloMosaic.PureOps.Ideal.Laws
import Idealize.ShloMosaic.PureOps.Reduce

noncomputable section

namespace Cert.LaneFold

open Idealize.ShloMosaic Idealize.ShloMosaic.ValueIdx

/-- Row p of an [a, b] array with column k put back is (p, k). -/
theorem lift_row {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- Line (p, q) of an [a, b, c] array with lane k put back is (p, q, k). -/
theorem lift_lane {a b c : ℕ} (h : (⟨3, ![a, b, c]⟩ : Shape).Reduces [2] ⟨2, ![a, b]⟩) (p : Fin a) (q : Fin b) (k : Fin c) :
    h.lift (ix2 p q) k = ix3 p q k := by
  funext d; apply Fin.ext
  match d with
  | ⟨0, _⟩ => rfl
  | ⟨1, _⟩ => rfl
  | ⟨2, _⟩ => rfl

/-- A host reduction of an [a, b] array along axis 1, at row p: the fold over that row from the initial value. -/
theorem host_row_fold {a b : ℕ} {u : Shape} {α : Type} (f : α → α → α) [Std.Commutative f] [Std.Associative f]
    (v : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce f v init h' hu (ix1 p)
      = (Finset.univ : Finset (Fin b)).fold f (init (Shape.Idx.first hu)) fun k => v (ix2 p k) :=
  (Host.reduce_eq_fold_single f v init h' h hu (ix1 p)).trans
    (congrArg (fun g => Finset.fold f (init (Shape.Idx.first hu)) g (Finset.univ : Finset (Fin b)))
      (funext fun k => congrArg v (lift_row h p k)))

/-- A kernel's maximum along the last axis of an [a, b, c] array, at (p, q): the fold of `max` over that line. -/
theorem lane_max {a b c : ℕ} (v : FVec Ideal ⟨3, ![a, b, c]⟩ .f32) (acc : BitVec (FTy.f32).bits)
    (h : (⟨3, ![a, b, c]⟩ : Shape).Reduces [2] ⟨2, ![a, b]⟩)
    (hφ : FKind.Formats .f32) (hacc : acc = FKind.maximumf.neutral .f32 hφ) (p : Fin a) (q : Fin b) :
    multiReduction .maximumf [2] ⟨2, ![a, b]⟩ v acc h hφ hacc (ix2 p q)
      = (Finset.univ : Finset (Fin c)).fold max (Ideal.ofBits .f32 acc) fun k => v (ix3 p q k) :=
  (Ideal.multiReduction_maximumf_single v acc h hφ hacc (ix2 p q)).trans
    (congrArg (fun g => Finset.fold max (Ideal.ofBits .f32 acc) g (Finset.univ : Finset (Fin c)))
      (funext fun k => congrArg v (lift_lane h p q k)))

/-- A kernel's minimum along the last axis of an [a, b, c] array, at (p, q): the fold of `min` over that line. -/
theorem lane_min {a b c : ℕ} (v : FVec Ideal ⟨3, ![a, b, c]⟩ .f32) (acc : BitVec (FTy.f32).bits)
    (h : (⟨3, ![a, b, c]⟩ : Shape).Reduces [2] ⟨2, ![a, b]⟩)
    (hφ : FKind.Formats .f32) (hacc : acc = FKind.minimumf.neutral .f32 hφ) (p : Fin a) (q : Fin b) :
    multiReduction .minimumf [2] ⟨2, ![a, b]⟩ v acc h hφ hacc (ix2 p q)
      = (Finset.univ : Finset (Fin c)).fold min (Ideal.ofBits .f32 acc) fun k => v (ix3 p q k) :=
  ((multiReduction_minimumf_eq_fold v acc h hφ hacc (ix2 p q)).trans
      (h.fold_filter_drop_single _ _ v (ix2 p q))).trans
    (congrArg (fun g => Finset.fold min (Ideal.ofBits .f32 acc) g (Finset.univ : Finset (Fin c)))
      (funext fun k => congrArg v (lift_lane h p q k)))

end Cert.LaneFold

end
-- ==== Proof.LibHostLaneFold.lean ====
/-
  A host reduction along the last axis of a rank-3 array, read at one index, for any extents.

  A host reduction of an [a, b, c] array along axis 2 by a commutative and associative operation holds, at (p, q), the
  fold of the operation from the initial value over the entries (p, q, k), k < c. It holds for arbitrary proofs of the
  operation's side conditions and depends on no program.
-/
import proofs.«174096_j77429670412962_1_alg».proof.Proof.LibLaneFold

noncomputable section

namespace Cert.HostLaneFold

open Idealize.ShloMosaic Idealize.ShloMosaic.ValueIdx

/-- A host reduction of an [a, b, c] array along axis 2, at (p, q): the fold over that line from the initial value. -/
theorem host_lane_fold {a b c : ℕ} {u : Shape} {α : Type} (f : α → α → α) [Std.Commutative f] [Std.Associative f]
    (v : (⟨3, ![a, b, c]⟩ : Shape).Idx → α) (init : u.Idx → α)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce f v init h' hu (ix2 p q)
      = (Finset.univ : Finset (Fin c)).fold f (init (Shape.Idx.first hu)) fun k => v (ix3 p q k) :=
  (Host.reduce_eq_fold_single f v init h' h hu (ix2 p q)).trans
    (congrArg (fun g => Finset.fold f (init (Shape.Idx.first hu)) g (Finset.univ : Finset (Fin c)))
      (funext fun k => congrArg v (Cert.LaneFold.lift_lane h p q k)))

end Cert.HostLaneFold

end
-- ==== Proof.RefStages.lean ====
/-
  The reference, stage by stage, is the specification.

  Each operation of the reference acts on whole [64, 512, ·] arrays. Read at the coordinates (b, s, u) every stage depends
  only on batch entry b of the two inputs and on the weights, and is the matching stage of the specification over those
  slices: the two contractions are the sums over the shared coordinate, the maximum and the sum along the last axis are
  the fold and the sum over a row, the sum along the middle axis is the sum down a column, and each keep-dimension
  broadcast reads the reduced array at the coordinates that were kept.
-/
import proofs.«174096_j77429670412962_1_alg».proof.Proof.Gen.ReferenceIdeal.Read
import proofs.«174096_j77429670412962_1_alg».proof.Proof.Spec
import proofs.«174096_j77429670412962_1_alg».proof.Proof.Slices
import proofs.«174096_j77429670412962_1_alg».proof.Proof.LibHostLaneFold

noncomputable section

namespace Cert.AttnRef

open Idealize.ShloMosaic Idealize.ShloMosaic.ValueIdx
open Cert.ReferenceIdeal Cert.ReferenceIdeal.Gen Cert.ReferenceIdeal.Read Cert.AttnSpec Cert.AttnSlices

variable (x0 : (⟨S64x512x512, .f32⟩ : BufTy).Contents (Elt Ideal)) (x1 : (⟨S64x512x256, .f32⟩ : BufTy).Contents (Elt Ideal))
  (x2 : (⟨S512x512, .f32⟩ : BufTy).Contents (Elt Ideal)) (x3 : (⟨S256x512, .f32⟩ : BufTy).Contents (Elt Ideal))
  (x4 : (⟨S512x512, .f32⟩ : BufTy).Contents (Elt Ideal))

/-- The two contractions added: entry (b, s, u) is the score of row s, column u, of batch entry b. -/
theorem ref_scores (b : Fin 64) (s u : Fin 512) :
    val_main_v2 (F := Ideal) x0 x1 x2 x3 (ix3 b s u) = scores (slab x0 b) (slab x1 b) (mat x2) (mat x3) s u := by
  rw [val_main_v2_apply, val_main_v0_apply, val_main_v1_apply]
  refine congrArg₂ (· + ·) (Finset.sum_congr rfl fun k _ => ?_) (Finset.sum_congr rfl fun k _ => ?_)
  · exact congrArg₂ (· * ·)
      (congrArg x0 (funext fun a => Fin.ext (by match a with | ⟨0, _⟩ => rfl | ⟨1, _⟩ => rfl | ⟨2, _⟩ => rfl)))
      (congrArg x2 (funext fun a => Fin.ext (by match a with | ⟨0, _⟩ => rfl | ⟨1, _⟩ => rfl)))
  · exact congrArg₂ (· * ·)
      (congrArg x1 (funext fun a => Fin.ext (by match a with | ⟨0, _⟩ => rfl | ⟨1, _⟩ => rfl | ⟨2, _⟩ => rfl)))
      (congrArg x3 (funext fun a => Fin.ext (by match a with | ⟨0, _⟩ => rfl | ⟨1, _⟩ => rfl)))

/-- The host's tanh of the scores is the activation. -/
theorem ref_act (b : Fin 64) (s u : Fin 512) :
    val_main_v3 (F := Ideal) x0 x1 x2 x3 (ix3 b s u) = act (slab x0 b) (slab x1 b) (mat x2) (mat x3) s u := by
  rw [val_main_v3_apply, ref_scores]
  rfl

/-- The maximum along the last axis, compared once more with −∞: the largest activation of row s. -/
theorem ref_rowTop (b : Fin 64) (s : Fin 512) :
    val_main_v6 (F := Ideal) x0 x1 x2 x3 (ix2 b s) = rowTop (slab x0 b) (slab x1 b) (mat x2) (mat x3) s := by
  rw [val_main_v6_apply, val_main_v5_apply]
  unfold val_main_v4
  rw [Cert.HostLaneFold.host_lane_fold FloatOps.maximumf _ _ reducesTo_S64x512x512_S64x512_d2 (by decide) h_S_ b s]
  simp only [ref_act]
  rfl

/-- The exponential of the activation less the row's largest, the latter read through the two keep-dimension broadcasts. -/
theorem ref_shifted (b : Fin 64) (s u : Fin 512) :
    val_main_v10 (F := Ideal) x0 x1 x2 x3 (ix3 b s u) = shifted (slab x0 b) (slab x1 b) (mat x2) (mat x3) s u := by
  have e : idx_main_v7 (idx_main_v8 (ix3 b s u)) = ix2 b s :=
    funext fun a => Fin.ext (by match a with | ⟨0, _⟩ => rfl | ⟨1, _⟩ => rfl)
  rw [val_main_v10_apply, val_main_v9_apply, ref_act, val_main_v8_apply, val_main_v7_apply, e, ref_rowTop]
  rfl

/-- The sum along the last axis from a zero initial value: the row sum of the exponentials. -/
theorem ref_rowMass (b : Fin 64) (s : Fin 512) :
    val_main_v11 (F := Ideal) x0 x1 x2 x3 (ix2 b s) = rowMass (slab x0 b) (slab x1 b) (mat x2) (mat x3) s := by
  rw [val_main_v11_apply, val_main_cst_1_apply, Ideal.ofBits_def, Ideal.ofBits_zero_f32, zero_add]
  refine Finset.sum_congr rfl fun k _ => ?_
  have e : idx_main_v11 (ix2 b s) k = ix3 b s k :=
    funext fun a => Fin.ext (by match a with | ⟨0, _⟩ => rfl | ⟨1, _⟩ => rfl | ⟨2, _⟩ => rfl)
  rw [e, ref_shifted]

/-- The exponential over its row sum: the softmax weight. -/
theorem ref_weight (b : Fin 64) (s u : Fin 512) :
    val_main_v14 (F := Ideal) x0 x1 x2 x3 (ix3 b s u) = weight (slab x0 b) (slab x1 b) (mat x2) (mat x3) s u := by
  have e : idx_main_v12 (idx_main_v13 (ix3 b s u)) = ix2 b s :=
    funext fun a => Fin.ext (by match a with | ⟨0, _⟩ => rfl | ⟨1, _⟩ => rfl)
  rw [val_main_v14_apply, ref_shifted, val_main_v13_apply, val_main_v12_apply, e, ref_rowMass]
  rfl

/-- The weights contracted with the third weight matrix, times the first input entry by entry. -/
theorem ref_mixed (b : Fin 64) (s t : Fin 512) :
    val_main_v16 (F := Ideal) x0 x1 x2 x3 x4 (ix3 b s t)
      = mixed (slab x0 b) (slab x1 b) (mat x2) (mat x3) (mat x4) s t := by
  rw [val_main_v16_apply, val_main_v15_apply]
  refine congrArg₂ (· * ·) (Finset.sum_congr rfl fun k _ => ?_) rfl
  have e : lidx_main_v15 (ix3 b s t) k = ix3 b s k :=
    funext fun a => Fin.ext (by match a with | ⟨0, _⟩ => rfl | ⟨1, _⟩ => rfl | ⟨2, _⟩ => rfl)
  rw [e, ref_weight]
  exact congrArg₂ (· * ·) rfl (congrArg x4 (funext fun a => Fin.ext (by match a with | ⟨0, _⟩ => rfl | ⟨1, _⟩ => rfl)))

/-- The sum of squares along the middle axis from a zero initial value: the sum of squares down column t. -/
theorem ref_colEnergy (b : Fin 64) (t : Fin 512) :
    val_main_v18 (F := Ideal) x0 x1 x2 x3 x4 (ix2 b t)
      = colEnergy (slab x0 b) (slab x1 b) (mat x2) (mat x3) (mat x4) t := by
  rw [val_main_v18_apply, val_main_cst_2_apply, Ideal.ofBits_def, Ideal.ofBits_zero_f32, zero_add]
  refine Finset.sum_congr rfl fun k _ => ?_
  have e : idx_main_v18 (ix2 b t) k = ix3 b k t :=
    funext fun a => Fin.ext (by match a with | ⟨0, _⟩ => rfl | ⟨1, _⟩ => rfl | ⟨2, _⟩ => rfl)
  rw [e, val_main_v17_apply, ref_mixed]
  rfl

/-- The reference's result at (b, s, t) is the specification of batch entry b at (s, t). -/
theorem ref_normalized (b : Fin 64) (s t : Fin 512) :
    val_main_v24 (F := Ideal) x0 x1 x2 x3 x4 (ix3 b s t)
      = normalized (slab x0 b) (slab x1 b) (mat x2) (mat x3) (mat x4) s t := by
  have e : idx_main_v19 (idx_main_v23 (ix3 b s t)) = ix2 b t :=
    funext fun a => Fin.ext (by match a with | ⟨0, _⟩ => rfl | ⟨1, _⟩ => rfl)
  rw [val_main_v24_apply, ref_mixed, val_main_v23_apply, val_main_v22_apply, val_main_v21_apply, val_main_v19_apply, e,
    ref_colEnergy, val_main_v20_apply, val_main_cst_3_apply]
  rfl

end Cert.AttnRef

end
-- ==== Proof.RefArray.lean ====
/-
  The reference's result array is the whole-array function of its arguments: every index is some (b, s, t), and there
  the reference's last stage is the specification of batch entry b at (s, t).
-/
import proofs.«174096_j77429670412962_1_alg».proof.Proof.RefStages
import proofs.«174096_j77429670412962_1_alg».proof.Proof.Whole

noncomputable section

namespace Cert.AttnRef

open Idealize.ShloMosaic Idealize.ShloMosaic.ValueIdx
open Cert.ReferenceIdeal Cert.ReferenceIdeal.Read Cert.AttnWhole

theorem ref_whole (x0 : (⟨S64x512x512, .f32⟩ : BufTy).Contents (Elt Ideal)) (x1 : (⟨S64x512x256, .f32⟩ : BufTy).Contents (Elt Ideal))
    (x2 : (⟨S512x512, .f32⟩ : BufTy).Contents (Elt Ideal)) (x3 : (⟨S256x512, .f32⟩ : BufTy).Contents (Elt Ideal))
    (x4 : (⟨S512x512, .f32⟩ : BufTy).Contents (Elt Ideal)) :
    val_main_v24 (F := Ideal) x0 x1 x2 x3 x4 = whole x0 x1 x2 x3 x4 := by
  funext i
  obtain ⟨b, s, t, rfl⟩ : ∃ (b : Fin 64) (s t : Fin 512), i = ix3 b s t := ⟨i 0, i 1, i 2, eq_ix3 i⟩
  exact ref_normalized x0 x1 x2 x3 x4 b s t

end Cert.AttnRef

end
-- ==== Proof.lean ====
/- The kernel computes, one batch entry per grid point, a tanh-activated attention: scores x·Wq + z·Wk, a softmax along
   each row, the weights times Wv, an entry-by-entry product with x, and an L2 normalisation down each column; the
   reference computes the same over whole [64, 512, ·] arrays. Read over the extended reals both are one function of
   the five arguments, index by index (`Cert.AttnWhole.whole`): the kernel's changes of float format are the identity,
   its products into zero accumulators and the reference's contractions are the same sums, its row and column reductions
   and the reference's reductions along an axis are the same folds and sums, and every other operation is the same
   operation applied in the same order. No law of arithmetic beyond that is used, so the precondition is never opened.
   The three frames are the generated ones (the reference's is its generated run with the result dropped), and the
   idealization rewrote no operation. -/
import proofs.«174096_j77429670412962_1_alg».proof.Defs
import proofs.«174096_j77429670412962_1_alg».proof.Proof.Gen.Kernel
import proofs.«174096_j77429670412962_1_alg».proof.Proof.Gen.Kernel.Skeleton
import proofs.«174096_j77429670412962_1_alg».proof.Proof.Gen.Kernel.Launch
import proofs.«174096_j77429670412962_1_alg».proof.Proof.Gen.Kernel.Points
import proofs.«174096_j77429670412962_1_alg».proof.Proof.Gen.Kernel.Frame
import proofs.«174096_j77429670412962_1_alg».proof.Proof.Gen.KernelIdeal
import proofs.«174096_j77429670412962_1_alg».proof.Proof.Gen.KernelIdeal.Skeleton
import proofs.«174096_j77429670412962_1_alg».proof.Proof.Gen.KernelIdeal.Launch
import proofs.«174096_j77429670412962_1_alg».proof.Proof.Gen.KernelIdeal.Points
import proofs.«174096_j77429670412962_1_alg».proof.Proof.Gen.KernelIdeal.Frame
import proofs.«174096_j77429670412962_1_alg».proof.Proof.Gen.ReferenceIdeal
import proofs.«174096_j77429670412962_1_alg».proof.Proof.Gen.Pre_finite_inputs
import proofs.«174096_j77429670412962_1_alg».proof.Proof.Gen.KernelIdeal.Value
import proofs.«174096_j77429670412962_1_alg».proof.Proof.Gen.ReferenceIdeal.Run
import proofs.«174096_j77429670412962_1_alg».proof.Proof.Gen.ReferenceIdeal.Read
import proofs.«174096_j77429670412962_1_alg».proof.Proof.KernelArray
import proofs.«174096_j77429670412962_1_alg».proof.Proof.RefArray
import Idealize.ShloMosaic.Adequacy
import Idealize.ShloMosaic.Init

noncomputable section

namespace Cert.Proof

open Idealize.ShloMosaic Idealize.SL.Sem Cert.Kernel

/-- The two idealized programs, run from memories that agree on the arguments, both end with the result array at the
    whole-array function of the arguments. -/
theorem algebraic : Cert.algebraic_KernelIdeal_ReferenceIdeal := by
  intro m ρ m' ρ' _ hagree
  refine ⟨fun c => Cert.AttnArray.result m c, Cert.AttnArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1,
    (hagree c).2.2.2.2]
  exact Cert.AttnRef.ref_whole _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
